-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2048x1 .f32 .bf16
  ∧ IdealRules.truncf_extf.Statement Cert.KernelIdeal.S2048x1 .f32 .bf16
  ∧ IdealRules.truncf_extf.Statement Cert.KernelIdeal.S2048x3 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel

variable [Facts]

def fn {F : FTy → Type} [FloatOps F] (main_arg0 : FVec F S16x2048x3 .f32) (main_arg1 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  main_v8
-- ==== Kernel.lean ====
abbrev S16x2048x3 : Shape := ⟨3, ![16, 2048, 3]⟩
abbrev S1x1 : Shape := ⟨2, ![1, 1]⟩
abbrev S1x2048x3 : Shape := ⟨3, ![1, 2048, 3]⟩
abbrev S2048x3 : Shape := ⟨2, ![2048, 3]⟩
abbrev S2048 : Shape := ⟨1, ![2048]⟩
abbrev S2048x1 : Shape := ⟨2, ![2048, 1]⟩
abbrev S2048x8 : Shape := ⟨2, ![2048, 8]⟩
abbrev S2048x2048 : Shape := ⟨2, ![2048, 2048]⟩
abbrev S2048x128 : Shape := ⟨2, ![2048, 128]⟩
abbrev S1 : Shape := ⟨1, ![1]⟩
abbrev S1x2048 : Shape := ⟨2, ![1, 2048]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S1x1, .f32⟩
  | .hbm, ⟨3, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x3, .f32⟩
  | .local _ .vmem, ⟨3, _⟩ => ⟨S1x2048x3, .f32⟩
  | .local _ .vmem, ⟨4, _⟩ => ⟨S1x1, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  reduces_S2048x3_S2048 : S2048x3.Reduces [1] S2048
  shapeCasts_S2048_S2048x1 : S2048.ShapeCasts S2048x1
  bitsLt_bf16_f32 : FTy.bits .bf16 < FTy.bits .f32
  concatenates_S2048x3_S2048x1_S2048x1_S2048x1_S2048x1_S2048x1_S2048x8_d1 : Shape.Concatenates [S2048x3, S2048x1, S2048x1, S2048x1, S2048x1, S2048x1] S2048x8 1
  slices_S2048x2048_o0_0_S2048x128 : S2048x2048.Slices ![0, 0] S2048x128
  slices_S2048x2048_o0_128_S2048x128 : S2048x2048.Slices ![0, 128] S2048x128
  slices_S2048x2048_o0_256_S2048x128 : S2048x2048.Slices ![0, 256] S2048x128
  slices_S2048x2048_o0_384_S2048x128 : S2048x2048.Slices ![0, 384] S2048x128
  slices_S2048x2048_o0_512_S2048x128 : S2048x2048.Slices ![0, 512] S2048x128
  slices_S2048x2048_o0_640_S2048x128 : S2048x2048.Slices ![0, 640] S2048x128
  slices_S2048x2048_o0_768_S2048x128 : S2048x2048.Slices ![0, 768] S2048x128
  slices_S2048x2048_o0_896_S2048x128 : S2048x2048.Slices ![0, 896] S2048x128
  slices_S2048x2048_o0_1024_S2048x128 : S2048x2048.Slices ![0, 1024] S2048x128
  slices_S2048x2048_o0_1152_S2048x128 : S2048x2048.Slices ![0, 1152] S2048x128
  slices_S2048x2048_o0_1280_S2048x128 : S2048x2048.Slices ![0, 1280] S2048x128
  slices_S2048x2048_o0_1408_S2048x128 : S2048x2048.Slices ![0, 1408] S2048x128
  slices_S2048x2048_o0_1536_S2048x128 : S2048x2048.Slices ![0, 1536] S2048x128
  slices_S2048x2048_o0_1664_S2048x128 : S2048x2048.Slices ![0, 1664] S2048x128
  slices_S2048x2048_o0_1792_S2048x128 : S2048x2048.Slices ![0, 1792] S2048x128
  slices_S2048x2048_o0_1920_S2048x128 : S2048x2048.Slices ![0, 1920] S2048x128
  reduces_S2048x128_S2048 : S2048x128.Reduces [1] S2048
  reduces_S2048x1_S1 : S2048x1.Reduces [0] S1
  shapeCasts_S1_S1x1 : S1.ShapeCasts S1x1
  reduces_S2048x2048_S2048 : S2048x2048.Reduces [0] S2048
  shapeCasts_S2048_S1x2048 : S2048.ShapeCasts S1x2048
  reduces_S1x2048_S1 : S1x2048.Reduces [1] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S2048x8_S2048x8_S2048x2048_1_1_0_0_n_n_wf : DotDims.WF S2048x8 S2048x8 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S16x2048x3.size a
  hwx0_0 : ∀ i : grid0.Coords, EltTy.bits .f32 = 32 ∨ (Rect.block (s := S16x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S16x2048x3.size a
  hwx0_1 : ∀ i : grid0.Coords, EltTy.bits .f32 = 32 ∨ (Rect.block (s := S16x2048x3) S1x2048x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S2048x8_S2048x8_S2048x2048_1_1_0_0_n_n : DotDims S2048x8 S2048x8 S2048x2048 where
  lhsContracting := [1]
  rhsContracting := [1]
  lhsNonContracting := [0]
  rhsNonContracting := [0]
  lhsBatch := []
  rhsBatch := []
  wf := dot_S2048x8_S2048x8_S2048x2048_1_1_0_0_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x3 : Shape := ⟨3, ![16, 2048, 3]⟩
abbrev S_ : Shape := ⟨0, ![]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x2048x3, .f32⟩
  | .hbm, ⟨3, _⟩ => ⟨S_, .f32⟩
  | .hbm, ⟨4, _⟩ => ⟨S16x2048, .f32⟩
  | .hbm, ⟨5, _⟩ => ⟨S16x2048x3, .f32⟩
  | .hbm, ⟨6, _⟩ => ⟨S_, .f32⟩
  | .hbm, ⟨7, _⟩ => ⟨S16x2048, .f32⟩
  | .hbm, ⟨8, _⟩ => ⟨S16x2048x2048, .f32⟩
  | .hbm, ⟨9, _⟩ => ⟨S16x2048x1, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S_, .f32⟩
  | .hbm, ⟨21, _⟩ => ⟨S16x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S16x2048x3_S16x2048_d2 : S16x2048x3.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  reducesTo_S16x2048x2048_S16x2048_d1 : S16x2048x2048.ReducesTo [1] S16x2048
  reducesTo_S16x2048_S_d0_1 : S16x2048.ReducesTo [0, 1] S_
  dot_S16x2048x3_S16x2048x3_S16x2048x2048_2_2_1_1_0_0_wf : DotDims.WF S16x2048x3 S16x2048x3 S16x2048x2048 [2] [2] [1] [1] [0] [0]

variable [Facts₀]

def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf

class Facts : Prop extends Facts₀ where

variable [Facts]
-- ==== Proof.Spec.lean ====
/-
  The Chamfer distance of two clouds of 2048 points in three dimensions, as a function on the extended reals, and the
  three laws that join the two programs.

  * The squared distance of points p and q is spelled (|p|² + |q|²) − 2·(p · q). The kernel instead takes ONE product
    of two rows of eight entries, (p₀, p₁, p₂, |p|², |p|² − |p|², 1, 1, 0) and (−2q₀, −2q₁, −2q₂, 1, 1, |q|², |q|² − |q|², 0).
    The two agree when the coordinates are real numbers: the difference |p|² − |p|² is then 0 (it is not at an
    infinity), and what is left is a polynomial identity over the reals (`eight_eq_dist`).
  * The nearest neighbour of a point is a minimum over 2048 candidates. The kernel takes it in two steps: sixteen
    chunks of 128 candidates are folded into one chunk by a balanced tree of pairwise minima, then the minimum of
    that chunk is taken. A minimum is characterised by what lies below it, so the grouping does not matter
    (`chunked_min`); this needs no finiteness.
  * The mean divides by 32768 = 16 · 2048. The kernel multiplies each cloud pair's two sums by 1/32768 and adds the
    sixteen products up; the reference adds everything up first. Multiplying by a nonnegative real distributes over
    every sum of extended reals (`scaled_total`); this needs no finiteness either.
-/
import Idealize.ShloMosaic.PureOps.Ideal
import Idealize.ShloMosaic.Lib.ValueIdx

noncomputable section

open scoped BigOperators

namespace Cert.Chamfer

open Idealize.ShloMosaic

/-! ## The bit patterns the two programs spell, as the numbers they denote -/

theorem word_zero : Ideal.ofBits .f32 0x00000000#32 = 0 := by
  simp [Ideal.ofBits, Ideal.ieee]
theorem word_two : Ideal.ofBits .f32 0x40000000#32 = ((2 : ℝ) : EReal) := by
  simp [Ideal.ofBits, Ideal.ieee, -EReal.coe_mul]; norm_num
theorem word_neg_two : Ideal.ofBits .f32 0xC0000000#32 = ((-2 : ℝ) : EReal) := by
  simp [Ideal.ofBits, Ideal.ieee, -EReal.coe_mul]; norm_num
theorem word_inv_count : Ideal.ofBits .f32 0x38000000#32 = ((1 / 32768 : ℝ) : EReal) := by
  simp [Ideal.ofBits, Ideal.ieee, -EReal.coe_mul]; norm_num
theorem word_count : Ideal.ofBits .f32 0x47000000#32 = ((32768 : ℝ) : EReal) := by
  simp [Ideal.ofBits, Ideal.ieee, -EReal.coe_mul]; norm_num
theorem half_one : Ideal.ofBits .bf16 0x3F80#16 = 1 := by
  simp [Ideal.ofBits, Ideal.ieee, -EReal.coe_mul]; norm_num
theorem half_zero : Ideal.ofBits .bf16 0x0000#16 = 0 := by
  simp [Ideal.ofBits, Ideal.ieee]
theorem word_top : Ideal.ofBits .f32 0x7F800000#32 = ⊤ := by
  simp [Ideal.ofBits, Ideal.ieee]

/-- An extended real whose absolute value lies below +∞ is a real number. -/
theorem real_of_abs_lt_top (x : EReal) (h : max x (-x) < ⊤) : ∃ r : ℝ, x = r := by
  induction x using EReal.rec with
  | bot => simp at h
  | top => simp at h
  | coe r => exact ⟨r, rfl⟩

/-! ## The squared distance -/

/-- The squared length of a point. -/
def sq (p : Fin 3 → EReal) : EReal := ∑ k, p k * p k

/-- The squared distance of two points, as the reference spells it: the two squared lengths added, less twice
    the inner product. -/
def dist (p q : Fin 3 → EReal) : EReal :=
  (sq p + sq q) - Ideal.ofBits .f32 0x40000000#32 * ∑ k, p k * q k

/-- The kernel's product of two rows of eight entries is the squared distance, for points with real coordinates. -/
theorem eight_eq_dist (p q : Fin 3 → EReal) (hp : ∀ k, ∃ r : ℝ, p k = r) (hq : ∀ k, ∃ r : ℝ, q k = r)
    (A B : Fin 8 → EReal)
    (hA0 : A 0 = p 0) (hA1 : A 1 = p 1) (hA2 : A 2 = p 2) (hA3 : A 3 = sq p) (hA4 : A 4 = sq p - sq p)
    (hA5 : A 5 = 1) (hA6 : A 6 = 1) (hA7 : A 7 = 0)
    (hB0 : B 0 = Ideal.ofBits .f32 0xC0000000#32 * q 0) (hB1 : B 1 = Ideal.ofBits .f32 0xC0000000#32 * q 1)
    (hB2 : B 2 = Ideal.ofBits .f32 0xC0000000#32 * q 2) (hB3 : B 3 = 1) (hB4 : B 4 = 1) (hB5 : B 5 = sq q)
    (hB6 : B 6 = sq q - sq q) (hB7 : B 7 = 0) :
    ∑ k, A k * B k = dist p q := by
  choose pr hpr using hp
  choose qr hqr using hq
  rw [Fin.sum_univ_eight, hA0, hA1, hA2, hA3, hA4, hA5, hA6, hA7, hB0, hB1, hB2, hB3, hB4, hB5, hB6, hB7]
  simp only [dist, sq, Fin.sum_univ_three, hpr, hqr, word_two, word_neg_two]
  norm_cast
  push_cast
  ring

/-! ## A minimum taken chunk by chunk -/

/-- Sixteen values folded by a balanced tree of pairwise minima. -/
def tree16 (e : Fin 16 → EReal) : EReal :=
  min (min (min (min (e 0) (e 1)) (min (e 2) (e 3))) (min (min (e 4) (e 5)) (min (e 6) (e 7))))
    (min (min (min (e 8) (e 9)) (min (e 10) (e 11))) (min (min (e 12) (e 13)) (min (e 14) (e 15))))

theorem tree16_le (e : Fin 16 → EReal) (c : Fin 16) : tree16 e ≤ e c := by
  fin_cases c <;> simp [tree16]

theorem le_tree16 (e : Fin 16 → EReal) (z : EReal) (h : ∀ c, z ≤ e c) : z ≤ tree16 e := by
  simp [tree16, h]

/-- The minimum over 128 lanes of the tree over sixteen chunks is the minimum over all 2048 candidates: each is the
    greatest value below every candidate and below the starting value. -/
theorem chunked_min (T : EReal) (d : Fin 2048 → EReal) :
    (Finset.univ : Finset (Fin 128)).fold min T
        (fun l => tree16 fun c => d ⟨128 * c.val + l.val, by have := c.isLt; have := l.isLt; omega⟩)
      = (Finset.univ : Finset (Fin 2048)).fold min T d := by
  apply le_antisymm
  · rw [Finset.le_fold_min]
    refine ⟨(Finset.fold_min_le _).mpr (Or.inl le_rfl), fun m _ => ?_⟩
    refine (Finset.fold_min_le _).mpr (Or.inr ⟨⟨m.val % 128, Nat.mod_lt _ (by decide)⟩, Finset.mem_univ _, ?_⟩)
    refine (tree16_le _ ⟨m.val / 128, by have := m.isLt; omega⟩).trans (le_of_eq (congrArg d (Fin.ext ?_)))
    show 128 * (m.val / 128) + m.val % 128 = m.val
    omega
  · rw [Finset.le_fold_min]
    refine ⟨(Finset.fold_min_le _).mpr (Or.inl le_rfl), fun l _ => le_tree16 _ _ fun c => ?_⟩
    exact (Finset.fold_min_le _).mpr (Or.inr ⟨_, Finset.mem_univ _, le_rfl⟩)

/-! ## The loss -/

/-- The starting value of every minimum: the word both programs spell (it denotes +∞, which is never needed). -/
def top : EReal := Ideal.ofBits .f32 0x7F800000#32

/-- The squared distance from point `n` of the first cloud to its nearest neighbour in the second. -/
def nearL (P Q : Fin 2048 → Fin 3 → EReal) (n : Fin 2048) : EReal :=
  (Finset.univ : Finset (Fin 2048)).fold min top fun m => dist (P n) (Q m)

/-- The squared distance from point `m` of the second cloud to its nearest neighbour in the first. -/
def nearR (P Q : Fin 2048 → Fin 3 → EReal) (m : Fin 2048) : EReal :=
  (Finset.univ : Finset (Fin 2048)).fold min top fun n => dist (P n) (Q m)

/-- An input array of sixteen clouds of 2048 points, read by cloud, point and coordinate. -/
def cloud (x : (⟨3, ![16, 2048, 3]⟩ : Shape).Idx → EReal) : Fin 16 → Fin 2048 → Fin 3 → EReal :=
  fun b n k => x (ValueIdx.ix3 b n k)

/-- One over the number of points of one side, 16 · 2048. -/
def scale : EReal := ((1 / 32768 : ℝ) : EReal)

theorem scale_nonneg : 0 ≤ scale := by
  unfold scale; exact_mod_cast (by norm_num : (0 : ℝ) ≤ 1 / 32768)
theorem scale_ne_top : scale ≠ ⊤ := EReal.coe_ne_top _

/-- The Chamfer loss of sixteen pairs of clouds: the mean over all first-cloud points of the distance to the
    nearest neighbour, plus the same mean over all second-cloud points. -/
def loss (x y : Fin 16 → Fin 2048 → Fin 3 → EReal) : EReal :=
  (∑ b, ∑ n, nearL (x b) (y b) n) * scale + (∑ b, ∑ m, nearR (x b) (y b) m) * scale

/-- Scaling by 1/32768 term by term is scaling the sum. -/
theorem sum_mul_scale {ι : Type} (s : Finset ι) (g : ι → EReal) : ∑ i ∈ s, g i * scale = (∑ i ∈ s, g i) * scale := by
  classical
  induction s using Finset.induction_on with
  | empty => simp
  | insert a s ha ih =>
    rw [Finset.sum_insert ha, Finset.sum_insert ha, ih, EReal.right_distrib_of_nonneg_of_ne_top scale_nonneg scale_ne_top]

/-- The kernel's sum of sixteen scaled pairs is the reference's two scaled totals. -/
theorem scaled_total (L R : Fin 16 → EReal) :
    ∑ b, (L b + R b) * scale = (∑ b, L b) * scale + (∑ b, R b) * scale := by
  rw [sum_mul_scale, Finset.sum_add_distrib, EReal.right_distrib_of_nonneg_of_ne_top scale_nonneg scale_ne_top]

end Cert.Chamfer

end
-- ==== Proof.Finite.lean ====
/-
  The precondition, read back: both clouds hold real numbers.

  The precondition compares the absolute value of every coordinate with +∞ and takes the conjunction over all
  coordinates of both inputs. A conjunction that holds gives each of its members; an extended real whose absolute value
  is below +∞ is neither infinity, so it is a real.
-/
import proofs.«175334_g481036337229_cont_8to1_c_20_8_alg».proof.Pre_finite_inputs
import proofs.«175334_g481036337229_cont_8to1_c_20_8_alg».proof.Proof.Gen.Pre_finite_inputs
import proofs.«175334_g481036337229_cont_8to1_c_20_8_alg».proof.Proof.Spec
import Idealize.ShloMosaic.Lib.ReduceAll
import Idealize.ShloMosaic.PureOps.Ideal
import Idealize.ShloMosaic.PureOps.Ideal.Laws

noncomputable section

namespace Cert.Chamfer

open Idealize.ShloMosaic

instance : Subsingleton Cert.Pre_finite_inputs.S_.Idx := ⟨fun a b => funext fun d => d.elim0⟩

/-- A truth value's one-bit word is 1 exactly when it is true. -/
theorem ofBool_eq_one_iff (b : Bool) : BitVec.ofBool b = 1#1 ↔ b = true := by cases b <;> decide

/-- Under the precondition every coordinate of both inputs is a real number. -/
theorem real_of_pre [Cert.Pre_finite_inputs.Facts] (x y : FVec Ideal Cert.Pre_finite_inputs.S16x2048x3 .f32)
    (h : Cert.Pre_finite_inputs.fn (F := Ideal) x y = fun _ => 1#1) :
    (∀ i, ∃ r : ℝ, x i = r) ∧ (∀ i, ∃ r : ℝ, y i = r) := by
  have h0 := congrFun h ValueIdx.ix0
  dsimp only [Cert.Pre_finite_inputs.fn] at h0
  obtain ⟨hx, hy⟩ := IntOp.andi_eq_one.1 h0
  constructor
  · intro i
    have e := Host.reduce_andi_all _ _ _ _ _ hx i
    refine real_of_abs_lt_top _ ?_
    simpa [cmpf, Host.absf, broadcastInDim, constant, Ideal.cmpf_def, Ideal.absf_def, Ideal.cmp, word_top, ofBool_eq_one_iff] using e
  · intro i
    have e := Host.reduce_andi_all _ _ _ _ _ hy i
    refine real_of_abs_lt_top _ ?_
    simpa [cmpf, Host.absf, broadcastInDim, constant, Ideal.cmpf_def, Ideal.absf_def, Ideal.cmp, word_top, ofBool_eq_one_iff] using e

end Cert.Chamfer

end
-- ==== Proof.RefLoss.lean ====
/-
  The reference computes the Chamfer loss: its result, read one operation at a time, is `loss` of the two inputs.

  The squared-distance stage at (b, n, m) is the two squared lengths (each a sum of three squares from 0) added, less 2
  times the inner product of point n of cloud b of the first input and point m of cloud b of the second. The two
  minimum stages fold that over m, respectively over n, from the starting word. The two sums run over every (b, n); the
  division by 32768 is the product with 1/32768 on every extended real.
-/
import proofs.«175334_g481036337229_cont_8to1_c_20_8_alg».proof.Proof.Gen.ReferenceIdeal.Read
import proofs.«175334_g481036337229_cont_8to1_c_20_8_alg».proof.Proof.Spec
import Idealize.ShloMosaic.PureOps.Ideal.Laws
import Idealize.ShloMosaic.Lib.ValueIdx

noncomputable section

open scoped BigOperators

namespace Cert.Chamfer.Ref

open Idealize.ShloMosaic Idealize.ShloMosaic.ValueIdx Cert.Chamfer
open Cert.ReferenceIdeal Cert.ReferenceIdeal.Gen Cert.ReferenceIdeal.Read

/-- The squared-distance stage at (b, n, m). -/
theorem dist_stage (x0 x1 : (⟨S16x2048x3, .f32⟩ : BufTy).Contents (Elt Ideal)) (b : Fin 16) (n m : Fin 2048) :
    val_main_v12 (F := Ideal) x0 x1 (ix3 b n m) = dist (cloud x0 b n) (cloud x1 b m) := by
  have e1 : ∀ k, idx_main_v1 (idx_main_v5 (idx_main_v7 (ix3 b n m))) k = ix3 b n k := fun k => funext fun a => by
    match a with | ⟨0, _⟩ => rfl | ⟨1, _⟩ => rfl | ⟨2, _⟩ => rfl
  have e2 : ∀ k, idx_main_v3 (idx_main_v6 (idx_main_v8 (ix3 b n m))) k = ix3 b m k := fun k => funext fun a => by
    match a with | ⟨0, _⟩ => rfl | ⟨1, _⟩ => rfl | ⟨2, _⟩ => rfl
  have e3 : ∀ k, lidx_main_v4 (ix3 b n m) k = ix3 b n k := fun k => funext fun a => by
    match a with | ⟨0, _⟩ => rfl | ⟨1, _⟩ => rfl | ⟨2, _⟩ => rfl
  have e4 : ∀ k, ridx_main_v4 (ix3 b n m) k = ix3 b m k := fun k => funext fun a => by
    match a with | ⟨0, _⟩ => rfl | ⟨1, _⟩ => rfl | ⟨2, _⟩ => rfl
  rw [val_main_v12_apply, val_main_v9_apply, val_main_v11_apply, val_main_v7_apply, val_main_v5_apply, val_main_v1_apply,
    val_main_v8_apply, val_main_v6_apply, val_main_v3_apply, val_main_v10_apply, val_main_v4_apply]
  simp only [val_main_v0_apply, val_main_v2_apply, val_main_cst_apply, val_main_cst_0_apply, val_main_cst_1_apply,
    Ideal.ofBits_def, Ideal.addf_def, Ideal.subf_def, Ideal.mulf_def, word_zero, zero_add, e1, e2, e3, e4, dist, sq, cloud]

/-- The nearest-neighbour stage of the first cloud's points. -/
theorem nearL_stage (x0 x1 : (⟨S16x2048x3, .f32⟩ : BufTy).Contents (Elt Ideal)) (b : Fin 16) (n : Fin 2048) :
    val_main_v13 (F := Ideal) x0 x1 (ix2 b n) = nearL (cloud x0 b) (cloud x1 b) n := by
  unfold val_main_v13
  rw [Host.reduce_eq_fold_single FloatOps.minimumf _ _ reducesTo_S16x2048x2048_S16x2048_d2
    (by decide : S16x2048x2048.Reduces [2] S16x2048) h_S_]
  show Finset.fold min top (fun m : Fin 2048 => val_main_v12 (F := Ideal) x0 x1 _) Finset.univ = _
  unfold nearL
  refine congrArg (fun f => Finset.fold min top f (Finset.univ : Finset (Fin 2048))) (funext fun m => ?_)
  rw [← dist_stage]
  exact congrArg _ (funext fun a => Fin.ext (by match a with | ⟨0, _⟩ => rfl | ⟨1, _⟩ => rfl | ⟨2, _⟩ => rfl))

/-- The nearest-neighbour stage of the second cloud's points. -/
theorem nearR_stage (x0 x1 : (⟨S16x2048x3, .f32⟩ : BufTy).Contents (Elt Ideal)) (b : Fin 16) (m : Fin 2048) :
    val_main_v14 (F := Ideal) x0 x1 (ix2 b m) = nearR (cloud x0 b) (cloud x1 b) m := by
  unfold val_main_v14
  rw [Host.reduce_eq_fold_single FloatOps.minimumf _ _ reducesTo_S16x2048x2048_S16x2048_d1
    (by decide : S16x2048x2048.Reduces [1] S16x2048) h_S_]
  show Finset.fold min top (fun n : Fin 2048 => val_main_v12 (F := Ideal) x0 x1 _) Finset.univ = _
  unfold nearR
  refine congrArg (fun f => Finset.fold min top f (Finset.univ : Finset (Fin 2048))) (funext fun n => ?_)
  rw [← dist_stage]
  exact congrArg _ (funext fun a => Fin.ext (by match a with | ⟨0, _⟩ => rfl | ⟨1, _⟩ => rfl | ⟨2, _⟩ => rfl))

/-- The reference's result is the Chamfer loss of its two inputs. -/
theorem result_eq_loss (x0 x1 : (⟨S16x2048x3, .f32⟩ : BufTy).Contents (Elt Ideal)) (i : S_.Idx) :
    val_main_v19 (F := Ideal) x0 x1 i = loss (cloud x0) (cloud x1) := by
  rw [val_main_v19_apply, val_main_v16_apply, val_main_v18_apply, val_main_v15_apply, val_main_v17_apply]
  simp only [val_main_cst_4_apply, val_main_cst_5_apply, val_main_cst_6_apply, val_main_cst_7_apply, Ideal.ofBits_def,
    Ideal.addf_def, Ideal.hostDivf_def, word_zero, zero_add, word_count,
    Ideal.div_coe (by norm_num : (32768 : ℝ) ≠ 0)]
  rw [sum_idx2, sum_idx2]
  simp only [nearL_stage, nearR_stage]
  rfl

end Cert.Chamfer.Ref

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.Layout.lean ====
/-
  The kernel's layout steps, each read at an index written by its coordinates.

  A block of one cloud is a [1, 2048, 3] array viewed as 2048 rows of 3 coordinates. A row's squared length is a lane
  sum kept as a column. The two factors of the product are rows of eight entries laid side by side: three coordinates,
  then five single columns. The product of two such factors at (n, m) is the sum over the eight entries of row n of
  the first times row m of the second. A chunk is 128 consecutive candidates of a row. A minimum along one axis is a
  fold of `min` over that axis' coordinates from the starting word; a sum along one axis kept as a [1, 1] array is the
  sum over that axis' coordinates.
-/
import proofs.«175334_g481036337229_cont_8to1_c_20_8_alg».proof.Proof.Gen.KernelIdeal
import proofs.«175334_g481036337229_cont_8to1_c_20_8_alg».proof.Proof.LibKeepdims
import proofs.«175334_g481036337229_cont_8to1_c_20_8_alg».proof.Proof.Spec
import Idealize.ShloMosaic.Lib.Pipeline.Value
import Idealize.ShloMosaic.Lib.ValueIdx
import Idealize.ShloMosaic.PureOps.Ideal.Laws

noncomputable section

open scoped BigOperators

namespace Cert.Chamfer.Kern

open Idealize.ShloMosaic Idealize.ShloMosaic.ValueIdx Cert.Chamfer
open Cert.KernelIdeal Cert.KernelIdeal.Gen

/-- The points of one cloud's block, by point and coordinate. -/
def pts (v : Vec Ideal S1x2048x3 .f32) : Fin 2048 → Fin 3 → EReal := fun n k => v (ix3 (0 : Fin 1) n k)

/-- The block viewed as 2048 rows of three coordinates. -/
theorem rows_apply (v : Vec Ideal S1x2048x3 .f32) (n : Fin 2048) (k : Fin 3) :
    shapeCast S2048x3 v shapeCasts_S1x2048x3_S2048x3 (ix2 n k) = pts v n k :=
  shapeCast_apply v _ (ix2 n k) (ix3 (0 : Fin 1) n k) (by
    rw [Shape.rowMajor_val_three, Shape.rowMajor_val_two]
    show ((0 : ℕ) * 2048 + n.val) * 3 + k.val = n.val * 3 + k.val
    omega)

/-- A row's squared length, kept as a column: the sum of the three squares. -/
theorem sqcol_apply (u : FVec Ideal S2048x3 .f32) (n : Fin 2048) (z : Fin 1) :
    shapeCast S2048x1 (multiReduction .add [1] S2048 (mulf u u) 0x00000000#32 reduces_S2048x3_S2048 (.inl rfl) rfl)
        shapeCasts_S2048_S2048x1 (ix2 n z)
      = ∑ k : Fin 3, u (ix2 n k) * u (ix2 n k) :=
  (shapeCast_a_a1_apply _ shapeCasts_S2048_S2048x1 n z).trans
    (laneSum_ab_apply (mulf u u) 0x00000000#32 reduces_S2048x3_S2048 (.inl rfl) rfl n)

/-- The squared length of point `n` of a block. -/
theorem sqcol_rows (v : Vec Ideal S1x2048x3 .f32) (n : Fin 2048) (z : Fin 1) :
    shapeCast S2048x1 (multiReduction (F := Ideal) .add [1] S2048
        (mulf (shapeCast S2048x3 v shapeCasts_S1x2048x3_S2048x3 : FVec Ideal S2048x3 .f32)
          (shapeCast S2048x3 v shapeCasts_S1x2048x3_S2048x3 : FVec Ideal S2048x3 .f32))
        0x00000000#32 reduces_S2048x3_S2048 (.inl rfl) rfl) shapeCasts_S2048_S2048x1 (ix2 n z)
      = sq (pts v n) :=
  (sqcol_apply (shapeCast S2048x3 v shapeCasts_S1x2048x3_S2048x3 : FVec Ideal S2048x3 .f32) n z).trans
    (Finset.sum_congr rfl fun k _ => by rw [rows_apply])

/-! ## The eight columns of a factor -/

theorem cat_0 {α : Type} (a : S2048x3.Idx → α) (b1 b2 b3 b4 b5 : S2048x1.Idx → α)
    (h : Shape.Concatenates [S2048x3, S2048x1, S2048x1, S2048x1, S2048x1, S2048x1] S2048x8 1) (n : Fin 2048) :
    concatenate S2048x8 1 [⟨S2048x3, a⟩, ⟨S2048x1, b1⟩, ⟨S2048x1, b2⟩, ⟨S2048x1, b3⟩, ⟨S2048x1, b4⟩, ⟨S2048x1, b5⟩] h
        (ix2 n (0 : Fin 8)) = a (ix2 n (0 : Fin 3)) :=
  concatenate_apply_piece 1 [⟨S2048x3, a⟩, ⟨S2048x1, b1⟩, ⟨S2048x1, b2⟩, ⟨S2048x1, b3⟩, ⟨S2048x1, b4⟩, ⟨S2048x1, b5⟩] h _ 0 (by show 0 < 6; omega) S2048x3 a rfl rfl 0 rfl (ix2 n (0 : Fin 3))
    (fun b hb => by match b with | ⟨0, _⟩ => rfl | ⟨1, _⟩ => exact absurd rfl hb) rfl

theorem cat_1 {α : Type} (a : S2048x3.Idx → α) (b1 b2 b3 b4 b5 : S2048x1.Idx → α)
    (h : Shape.Concatenates [S2048x3, S2048x1, S2048x1, S2048x1, S2048x1, S2048x1] S2048x8 1) (n : Fin 2048) :
    concatenate S2048x8 1 [⟨S2048x3, a⟩, ⟨S2048x1, b1⟩, ⟨S2048x1, b2⟩, ⟨S2048x1, b3⟩, ⟨S2048x1, b4⟩, ⟨S2048x1, b5⟩] h
        (ix2 n (1 : Fin 8)) = a (ix2 n (1 : Fin 3)) :=
  concatenate_apply_piece 1 [⟨S2048x3, a⟩, ⟨S2048x1, b1⟩, ⟨S2048x1, b2⟩, ⟨S2048x1, b3⟩, ⟨S2048x1, b4⟩, ⟨S2048x1, b5⟩] h _ 0 (by show 0 < 6; omega) S2048x3 a rfl rfl 0 rfl (ix2 n (1 : Fin 3))
    (fun b hb => by match b with | ⟨0, _⟩ => rfl | ⟨1, _⟩ => exact absurd rfl hb) rfl

theorem cat_2 {α : Type} (a : S2048x3.Idx → α) (b1 b2 b3 b4 b5 : S2048x1.Idx → α)
    (h : Shape.Concatenates [S2048x3, S2048x1, S2048x1, S2048x1, S2048x1, S2048x1] S2048x8 1) (n : Fin 2048) :
    concatenate S2048x8 1 [⟨S2048x3, a⟩, ⟨S2048x1, b1⟩, ⟨S2048x1, b2⟩, ⟨S2048x1, b3⟩, ⟨S2048x1, b4⟩, ⟨S2048x1, b5⟩] h
        (ix2 n (2 : Fin 8)) = a (ix2 n (2 : Fin 3)) :=
  concatenate_apply_piece 1 [⟨S2048x3, a⟩, ⟨S2048x1, b1⟩, ⟨S2048x1, b2⟩, ⟨S2048x1, b3⟩, ⟨S2048x1, b4⟩, ⟨S2048x1, b5⟩] h _ 0 (by show 0 < 6; omega) S2048x3 a rfl rfl 0 rfl (ix2 n (2 : Fin 3))
    (fun b hb => by match b with | ⟨0, _⟩ => rfl | ⟨1, _⟩ => exact absurd rfl hb) rfl

theorem cat_3 {α : Type} (a : S2048x3.Idx → α) (b1 b2 b3 b4 b5 : S2048x1.Idx → α)
    (h : Shape.Concatenates [S2048x3, S2048x1, S2048x1, S2048x1, S2048x1, S2048x1] S2048x8 1) (n : Fin 2048) :
    concatenate S2048x8 1 [⟨S2048x3, a⟩, ⟨S2048x1, b1⟩, ⟨S2048x1, b2⟩, ⟨S2048x1, b3⟩, ⟨S2048x1, b4⟩, ⟨S2048x1, b5⟩] h
        (ix2 n (3 : Fin 8)) = b1 (ix2 n (0 : Fin 1)) :=
  concatenate_apply_piece 1 [⟨S2048x3, a⟩, ⟨S2048x1, b1⟩, ⟨S2048x1, b2⟩, ⟨S2048x1, b3⟩, ⟨S2048x1, b4⟩, ⟨S2048x1, b5⟩] h _ 1 (by show 1 < 6; omega) S2048x1 b1 rfl rfl 3 rfl (ix2 n (0 : Fin 1))
    (fun b hb => by match b with | ⟨0, _⟩ => rfl | ⟨1, _⟩ => exact absurd rfl hb) rfl

theorem cat_4 {α : Type} (a : S2048x3.Idx → α) (b1 b2 b3 b4 b5 : S2048x1.Idx → α)
    (h : Shape.Concatenates [S2048x3, S2048x1, S2048x1, S2048x1, S2048x1, S2048x1] S2048x8 1) (n : Fin 2048) :
    concatenate S2048x8 1 [⟨S2048x3, a⟩, ⟨S2048x1, b1⟩, ⟨S2048x1, b2⟩, ⟨S2048x1, b3⟩, ⟨S2048x1, b4⟩, ⟨S2048x1, b5⟩] h
        (ix2 n (4 : Fin 8)) = b2 (ix2 n (0 : Fin 1)) :=
  concatenate_apply_piece 1 [⟨S2048x3, a⟩, ⟨S2048x1, b1⟩, ⟨S2048x1, b2⟩, ⟨S2048x1, b3⟩, ⟨S2048x1, b4⟩, ⟨S2048x1, b5⟩] h _ 2 (by show 2 < 6; omega) S2048x1 b2 rfl rfl 4 rfl (ix2 n (0 : Fin 1))
    (fun b hb => by match b with | ⟨0, _⟩ => rfl | ⟨1, _⟩ => exact absurd rfl hb) rfl

theorem cat_5 {α : Type} (a : S2048x3.Idx → α) (b1 b2 b3 b4 b5 : S2048x1.Idx → α)
    (h : Shape.Concatenates [S2048x3, S2048x1, S2048x1, S2048x1, S2048x1, S2048x1] S2048x8 1) (n : Fin 2048) :
    concatenate S2048x8 1 [⟨S2048x3, a⟩, ⟨S2048x1, b1⟩, ⟨S2048x1, b2⟩, ⟨S2048x1, b3⟩, ⟨S2048x1, b4⟩, ⟨S2048x1, b5⟩] h
        (ix2 n (5 : Fin 8)) = b3 (ix2 n (0 : Fin 1)) :=
  concatenate_apply_piece 1 [⟨S2048x3, a⟩, ⟨S2048x1, b1⟩, ⟨S2048x1, b2⟩, ⟨S2048x1, b3⟩, ⟨S2048x1, b4⟩, ⟨S2048x1, b5⟩] h _ 3 (by show 3 < 6; omega) S2048x1 b3 rfl rfl 5 rfl (ix2 n (0 : Fin 1))
    (fun b hb => by match b with | ⟨0, _⟩ => rfl | ⟨1, _⟩ => exact absurd rfl hb) rfl

theorem cat_6 {α : Type} (a : S2048x3.Idx → α) (b1 b2 b3 b4 b5 : S2048x1.Idx → α)
    (h : Shape.Concatenates [S2048x3, S2048x1, S2048x1, S2048x1, S2048x1, S2048x1] S2048x8 1) (n : Fin 2048) :
    concatenate S2048x8 1 [⟨S2048x3, a⟩, ⟨S2048x1, b1⟩, ⟨S2048x1, b2⟩, ⟨S2048x1, b3⟩, ⟨S2048x1, b4⟩, ⟨S2048x1, b5⟩] h
        (ix2 n (6 : Fin 8)) = b4 (ix2 n (0 : Fin 1)) :=
  concatenate_apply_piece 1 [⟨S2048x3, a⟩, ⟨S2048x1, b1⟩, ⟨S2048x1, b2⟩, ⟨S2048x1, b3⟩, ⟨S2048x1, b4⟩, ⟨S2048x1, b5⟩] h _ 4 (by show 4 < 6; omega) S2048x1 b4 rfl rfl 6 rfl (ix2 n (0 : Fin 1))
    (fun b hb => by match b with | ⟨0, _⟩ => rfl | ⟨1, _⟩ => exact absurd rfl hb) rfl

theorem cat_7 {α : Type} (a : S2048x3.Idx → α) (b1 b2 b3 b4 b5 : S2048x1.Idx → α)
    (h : Shape.Concatenates [S2048x3, S2048x1, S2048x1, S2048x1, S2048x1, S2048x1] S2048x8 1) (n : Fin 2048) :
    concatenate S2048x8 1 [⟨S2048x3, a⟩, ⟨S2048x1, b1⟩, ⟨S2048x1, b2⟩, ⟨S2048x1, b3⟩, ⟨S2048x1, b4⟩, ⟨S2048x1, b5⟩] h
        (ix2 n (7 : Fin 8)) = b5 (ix2 n (0 : Fin 1)) :=
  concatenate_apply_piece 1 [⟨S2048x3, a⟩, ⟨S2048x1, b1⟩, ⟨S2048x1, b2⟩, ⟨S2048x1, b3⟩, ⟨S2048x1, b4⟩, ⟨S2048x1, b5⟩] h _ 5 (by show 5 < 6; omega) S2048x1 b5 rfl rfl 7 rfl (ix2 n (0 : Fin 1))
    (fun b hb => by match b with | ⟨0, _⟩ => rfl | ⟨1, _⟩ => exact absurd rfl hb) rfl

/-! ## The product -/

theorem lhs8_0 (i : S2048x2048.Idx) (q : dot_S2048x8_S2048x8_S2048x2048_1_1_0_0_n_n.contr.Idx) : (dot_S2048x8_S2048x8_S2048x2048_1_1_0_0_n_n.lhsIdx i q 0).val = (i 0).val := by
  unfold DotDims.lhsIdx
  rw [dif_neg (show ¬(0 : Fin S2048x8.rank) ∈ dot_S2048x8_S2048x8_S2048x2048_1_1_0_0_n_n.lhsBatch by decide),
    dif_pos (show (0 : Fin S2048x8.rank) ∈ dot_S2048x8_S2048x8_S2048x2048_1_1_0_0_n_n.lhsNonContracting by decide)]
  rfl
theorem lhs8_1 (i : S2048x2048.Idx) (q : dot_S2048x8_S2048x8_S2048x2048_1_1_0_0_n_n.contr.Idx) : (dot_S2048x8_S2048x8_S2048x2048_1_1_0_0_n_n.lhsIdx i q 1).val = (q ⟨0, by decide⟩).val :=
  dot_S2048x8_S2048x8_S2048x2048_1_1_0_0_n_n.lhsIdx_val_of_single rfl i q
theorem rhs8_0 (i : S2048x2048.Idx) (q : dot_S2048x8_S2048x8_S2048x2048_1_1_0_0_n_n.contr.Idx) : (dot_S2048x8_S2048x8_S2048x2048_1_1_0_0_n_n.rhsIdx i q 0).val = (i 1).val := by
  unfold DotDims.rhsIdx
  rw [dif_neg (show ¬(0 : Fin S2048x8.rank) ∈ dot_S2048x8_S2048x8_S2048x2048_1_1_0_0_n_n.rhsBatch by decide),
    dif_pos (show (0 : Fin S2048x8.rank) ∈ dot_S2048x8_S2048x8_S2048x2048_1_1_0_0_n_n.rhsNonContracting by decide)]
  rfl
theorem rhs8_1 (i : S2048x2048.Idx) (q : dot_S2048x8_S2048x8_S2048x2048_1_1_0_0_n_n.contr.Idx) : (dot_S2048x8_S2048x8_S2048x2048_1_1_0_0_n_n.rhsIdx i q 1).val = (q ⟨0, by decide⟩).val :=
  dot_S2048x8_S2048x8_S2048x2048_1_1_0_0_n_n.rhsIdx_val_of_single rfl i q

/-- The product of two factors at (n, m): the sum over the eight entries of row n times row m. -/
theorem prod_apply (A B : FVec Ideal S2048x8 .bf16) (n m : Fin 2048) :
    matmul dot_S2048x8_S2048x8_S2048x2048_1_1_0_0_n_n none A B (constant S2048x2048 .f32 0x00000000#32) (ix2 n m)
      = ∑ k : Fin 8, A (ix2 n k) * B (ix2 m k) := by
  simp only [matmul]
  rw [Ideal.matmul_constant_zero_apply, ← Equiv.sum_comp (contrEquiv1 dot_S2048x8_S2048x8_S2048x2048_1_1_0_0_n_n 8 rfl rfl).symm]
  refine Finset.sum_congr rfl fun k _ => ?_
  have hk := contrEquiv1_symm_val dot_S2048x8_S2048x8_S2048x2048_1_1_0_0_n_n 8 rfl rfl k
  have el : dot_S2048x8_S2048x8_S2048x2048_1_1_0_0_n_n.lhsIdx (ix2 n m) ((contrEquiv1 dot_S2048x8_S2048x8_S2048x2048_1_1_0_0_n_n 8 rfl rfl).symm k) = ix2 n k := funext fun a => Fin.ext (by
    match a with
    | ⟨0, _⟩ => exact lhs8_0 _ _
    | ⟨1, _⟩ => exact (lhs8_1 _ _).trans hk)
  have er : dot_S2048x8_S2048x8_S2048x2048_1_1_0_0_n_n.rhsIdx (ix2 n m) ((contrEquiv1 dot_S2048x8_S2048x8_S2048x2048_1_1_0_0_n_n 8 rfl rfl).symm k) = ix2 m k := funext fun a => Fin.ext (by
    match a with
    | ⟨0, _⟩ => exact rhs8_0 _ _
    | ⟨1, _⟩ => exact (rhs8_1 _ _).trans hk)
  rw [el, er]

/-! ## Chunks, minima, sums -/

/-- A chunk of 128 candidates starting at candidate `o`: its lane `l` is candidate `o + l`. -/
theorem chunk_apply (d : FVec Ideal S2048x2048 .f32) (o : ℕ) (h : S2048x2048.Slices ![0, o] S2048x128)
    (n : Fin 2048) (l : Fin 128) (m : Fin 2048) (hm : m.val = o + l.val) :
    extractStridedSlice S2048x128 ![0, o] d h (ix2 n l) = d (ix2 n m) :=
  extractStridedSlice_apply _ d h (ix2 n l) (ix2 n m) fun a => by
    match a with
    | ⟨0, _⟩ => show n.val = 0 + n.val; omega
    | ⟨1, _⟩ => exact hm

/-- The minimum over the 128 lanes of row `n`. -/
theorem laneMin_apply (w : FVec Ideal S2048x128 .f32) (n : Fin 2048) :
    multiReduction .minimumf [1] S2048 w 0x7F800000#32 reduces_S2048x128_S2048 (.inl rfl) rfl (ix1 n)
      = (Finset.univ : Finset (Fin 128)).fold min top fun l => w (ix2 n l) := by
  refine (multiReduction_minimumf_eq_fold w 0x7F800000#32 reduces_S2048x128_S2048 (.inl rfl) rfl (ix1 n)).trans ?_
  refine (Shape.Reduces.fold_filter_drop_single reduces_S2048x128_S2048 FloatOps.minimumf
    (FloatOps.ofBits .f32 0x7F800000#32) w (ix1 n)).trans ?_
  show Finset.fold min top (fun l : Fin 128 => w _) Finset.univ = _
  refine congrArg (fun f => Finset.fold min top f (Finset.univ : Finset (Fin 128))) (funext fun l => ?_)
  exact congrArg w (funext fun a => Fin.ext (by match a with | ⟨0, _⟩ => rfl | ⟨1, _⟩ => rfl))

/-- The minimum over the 2048 rows of column `m`. -/
theorem colMin_apply (d : FVec Ideal S2048x2048 .f32) (m : Fin 2048) :
    multiReduction .minimumf [0] S2048 d 0x7F800000#32 reduces_S2048x2048_S2048 (.inl rfl) rfl (ix1 m)
      = (Finset.univ : Finset (Fin 2048)).fold min top fun n => d (ix2 n m) := by
  refine (multiReduction_minimumf_eq_fold d 0x7F800000#32 reduces_S2048x2048_S2048 (.inl rfl) rfl (ix1 m)).trans ?_
  refine (Shape.Reduces.fold_filter_drop_single reduces_S2048x2048_S2048 FloatOps.minimumf
    (FloatOps.ofBits .f32 0x7F800000#32) d (ix1 m)).trans ?_
  show Finset.fold min top (fun n : Fin 2048 => d _) Finset.univ = _
  refine congrArg (fun f => Finset.fold min top f (Finset.univ : Finset (Fin 2048))) (funext fun n => ?_)
  exact congrArg d (funext fun a => Fin.ext (by match a with | ⟨0, _⟩ => rfl | ⟨1, _⟩ => rfl))

/-- The sum of a vector of 2048 entries, taken down a column and kept as a [1, 1] array. -/
theorem rowSum_apply (u : FVec Ideal S2048 .f32) (j : S1x1.Idx) :
    shapeCast S1x1 (multiReduction .add [0] S1 (shapeCast S2048x1 u shapeCasts_S2048_S2048x1) 0x00000000#32
        reduces_S2048x1_S1 (.inl rfl) rfl) shapeCasts_S1_S1x1 j
      = ∑ n : Fin 2048, u (ix1 n) := by
  obtain ⟨p, q, rfl⟩ : ∃ (p : Fin 1) (q : Fin 1), j = ix2 p q := ⟨j 0, j 1, eq_ix2 j⟩
  refine (shapeCast_a_a1_apply _ shapeCasts_S1_S1x1 p q).trans ?_
  refine (Ideal.multiReduction_add_single (shapeCast S2048x1 u shapeCasts_S2048_S2048x1) 0x00000000#32
    reduces_S2048x1_S1 (.inl rfl) rfl (ix1 p)).trans ?_
  show ∑ n : Fin 2048, shapeCast S2048x1 u shapeCasts_S2048_S2048x1 _ = _
  refine Finset.sum_congr rfl fun n _ => ?_
  refine Eq.trans (congrArg _ ?_) (shapeCast_a_a1_apply u shapeCasts_S2048_S2048x1 n p)
  exact funext fun a => Fin.ext (by match a with | ⟨0, _⟩ => rfl | ⟨1, _⟩ => rfl)

/-- The sum of a vector of 2048 entries, taken along a row and kept as a [1, 1] array. -/
theorem colSum_apply (u : FVec Ideal S2048 .f32) (j : S1x1.Idx) :
    shapeCast S1x1 (multiReduction .add [1] S1 (shapeCast S1x2048 u shapeCasts_S2048_S1x2048) 0x00000000#32
        reduces_S1x2048_S1 (.inl rfl) rfl) shapeCasts_S1_S1x1 j
      = ∑ m : Fin 2048, u (ix1 m) := by
  obtain ⟨p, q, rfl⟩ : ∃ (p : Fin 1) (q : Fin 1), j = ix2 p q := ⟨j 0, j 1, eq_ix2 j⟩
  refine (shapeCast_a_a1_apply _ shapeCasts_S1_S1x1 p q).trans ?_
  refine (laneSum_ab_apply (shapeCast S1x2048 u shapeCasts_S2048_S1x2048) 0x00000000#32 reduces_S1x2048_S1
    (.inl rfl) rfl p).trans ?_
  refine Finset.sum_congr rfl fun m _ => ?_
  exact shapeCast_apply u shapeCasts_S2048_S1x2048 (ix2 p m) (ix1 m) (by
    rw [Shape.rowMajor_val_one, Shape.rowMajor_val_two]
    show m.val = p.val * 2048 + m.val
    have := p.isLt
    omega)

/-- The balanced tree of pairwise minima of sixteen arrays, at an index where each array's entry is known. -/
theorem tree_of (e : Fin 16 → EReal)
    (s0 s1 s2 s3 s4 s5 s6 s7 s8 s9 s10 s11 s12 s13 s14 s15 : FVec Ideal S2048x128 .f32) (i : S2048x128.Idx)
    (h0 : s0 i = e 0) (h1 : s1 i = e 1) (h2 : s2 i = e 2) (h3 : s3 i = e 3) (h4 : s4 i = e 4) (h5 : s5 i = e 5) (h6 : s6 i = e 6) (h7 : s7 i = e 7) (h8 : s8 i = e 8) (h9 : s9 i = e 9) (h10 : s10 i = e 10) (h11 : s11 i = e 11) (h12 : s12 i = e 12) (h13 : s13 i = e 13) (h14 : s14 i = e 14) (h15 : s15 i = e 15) :
    minimumf
      (minimumf (minimumf (minimumf s0 s1) (minimumf s2 s3)) (minimumf (minimumf s4 s5) (minimumf s6 s7)))
      (minimumf (minimumf (minimumf s8 s9) (minimumf s10 s11)) (minimumf (minimumf s12 s13) (minimumf s14 s15))) i
      = tree16 e := by
  unfold tree16
  rw [← h0, ← h1, ← h2, ← h3, ← h4, ← h5, ← h6, ← h7, ← h8, ← h9, ← h10, ← h11, ← h12, ← h13, ← h14, ← h15]
  rfl

/-- The point's contribution joined to the running value: the running value plus the two sums, scaled. -/
theorem combine_apply (acc : Vec Ideal S1x1 .f32) (u w : FVec Ideal S1x1 .f32) (j : S1x1.Idx) :
    addf (shapeCast S1x1 acc shapeCasts_S1x1_S1x1)
        (mulf (addf u w) (broadcast S1x1 (Scalar.ofBits .f32 0x38000000#32))) j
      = acc j + (u j + w j) * scale := by
  rw [shapeCast_self]
  show acc j + (u j + w j) * Ideal.ofBits .f32 0x38000000#32 = _
  rw [word_inv_count]
  rfl

end Cert.Chamfer.Kern

end
-- ==== Proof.KernelPoint.lean ====
/-
  What the kernel's body computes at one grid point, as a function of the two clouds' blocks.

  The product of the two eight-entry factors at (n, m) is the squared distance of point n of the first block and
  point m of the second, for blocks of real numbers: the factors' columns are the three coordinates, the squared
  length, the squared length less itself, and the constants 1, 1, 0 on one side; −2 times the coordinates, 1, 1, the
  squared length, the squared length less itself, and 0 on the other.

  The value the body stores is the value it found in the output, plus 1/32768 times the sum of two sums: over the
  first block's points of the minimum over 128 lanes of the sixteen-chunk tree of the products (the distance to the
  nearest neighbour), and over the second block's points of the minimum over the first block's points.
-/
import proofs.«175334_g481036337229_cont_8to1_c_20_8_alg».proof.Proof.Gen.KernelIdeal.Skeleton
import proofs.«175334_g481036337229_cont_8to1_c_20_8_alg».proof.Proof.Layout

noncomputable section

open scoped BigOperators

namespace Cert.Chamfer.Kern

open Idealize.ShloMosaic Idealize.ShloMosaic.ValueIdx Cert.Chamfer
open Cert.KernelIdeal Cert.KernelIdeal.Gen

/-- The product at (n, m) is the squared distance of the two points. -/
theorem pay3_apply (x0 x1 : Vec Ideal S1x2048x3 .f32) (hx0 : ∀ i, ∃ r : ℝ, x0 i = r) (hx1 : ∀ i, ∃ r : ℝ, x1 i = r)
    (n m : Fin 2048) : k0_pay3 x0 x1 (ix2 n m) = dist (pts x0 n) (pts x1 m) := by
  unfold k0_pay3
  dsimp only
  refine (prod_apply _ _ n m).trans ?_
  refine eight_eq_dist (pts x0 n) (pts x1 m) (fun k => hx0 (ix3 (0 : Fin 1) n k)) (fun k => hx1 (ix3 (0 : Fin 1) m k)) _ _
    ?_ ?_ ?_ ?_ ?_ ?_ ?_ ?_ ?_ ?_ ?_ ?_ ?_ ?_ ?_ ?_
  · exact (cat_0 _ _ _ _ _ _ _ n).trans (rows_apply x0 n 0)
  · exact (cat_1 _ _ _ _ _ _ _ n).trans (rows_apply x0 n 1)
  · exact (cat_2 _ _ _ _ _ _ _ n).trans (rows_apply x0 n 2)
  · exact (cat_3 _ _ _ _ _ _ _ n).trans (sqcol_rows x0 n 0)
  · exact (cat_4 _ _ _ _ _ _ _ n).trans (congrArg₂ (· - ·) (sqcol_rows x0 n 0) (sqcol_rows x0 n 0))
  · exact (cat_5 _ _ _ _ _ _ _ n).trans half_one
  · exact (cat_6 _ _ _ _ _ _ _ n).trans half_one
  · exact (cat_7 _ _ _ _ _ _ _ n).trans half_zero
  · exact (cat_0 _ _ _ _ _ _ _ m).trans (congrArg (Ideal.ofBits .f32 0xC0000000#32 * ·) (rows_apply x1 m 0))
  · exact (cat_1 _ _ _ _ _ _ _ m).trans (congrArg (Ideal.ofBits .f32 0xC0000000#32 * ·) (rows_apply x1 m 1))
  · exact (cat_2 _ _ _ _ _ _ _ m).trans (congrArg (Ideal.ofBits .f32 0xC0000000#32 * ·) (rows_apply x1 m 2))
  · exact (cat_3 _ _ _ _ _ _ _ m).trans half_one
  · exact (cat_4 _ _ _ _ _ _ _ m).trans half_one
  · exact (cat_5 _ _ _ _ _ _ _ m).trans (sqcol_rows x1 m 0)
  · exact (cat_6 _ _ _ _ _ _ _ m).trans (congrArg₂ (· - ·) (sqcol_rows x1 m 0) (sqcol_rows x1 m 0))
  · exact (cat_7 _ _ _ _ _ _ _ m).trans half_zero

/-- One point's two sums: over the first block's points of the distance to the nearest point of the second, and
    over the second block's points of the distance to the nearest point of the first. -/
def pointSums (x0 x1 : Vec Ideal S1x2048x3 .f32) : EReal :=
  (∑ n, nearL (pts x0) (pts x1) n) + (∑ m, nearR (pts x0) (pts x1) m)

/-- The value the body stores: what it found in the output, plus the point's two sums scaled by 1/32768. -/
theorem pay2_apply (x0 x1 : Vec Ideal S1x2048x3 .f32) (hx0 : ∀ i, ∃ r : ℝ, x0 i = r) (hx1 : ∀ i, ∃ r : ℝ, x1 i = r)
    (acc : Vec Ideal S1x1 .f32) (j : S1x1.Idx) :
    k0_pay2 (k0_pay3 x0 x1) (k0_pay4 x0 x1) (k0_pay5 x0 x1) (k0_pay6 x0 x1) (k0_pay7 x0 x1) (k0_pay8 x0 x1) (k0_pay9 x0 x1) (k0_pay10 x0 x1) (k0_pay11 x0 x1) (k0_pay12 x0 x1) (k0_pay13 x0 x1) (k0_pay14 x0 x1) (k0_pay15 x0 x1) (k0_pay16 x0 x1) (k0_pay17 x0 x1) acc j = acc j + pointSums x0 x1 * scale := by
  unfold k0_pay2 k0_pay4 k0_pay5 k0_pay6 k0_pay7 k0_pay8 k0_pay9 k0_pay10 k0_pay11 k0_pay12 k0_pay13 k0_pay14 k0_pay15
    k0_pay16 k0_pay17
  dsimp only
  refine (combine_apply acc _ _ j).trans ?_
  unfold pointSums
  refine congrArg₂ (fun a b => acc j + (a + b) * scale) ?_ ?_
  · refine (rowSum_apply _ j).trans (Finset.sum_congr rfl fun n _ => ?_)
    refine (laneMin_apply _ n).trans ?_
    unfold nearL
    refine Eq.trans (congrArg (fun f => Finset.fold min top f (Finset.univ : Finset (Fin 128))) (funext fun l => ?_))
      (chunked_min top fun m => dist (pts x0 n) (pts x1 m))
    refine tree_of (fun c => dist (pts x0 n) (pts x1 ⟨128 * c.val + l.val, by have := c.isLt; have := l.isLt; omega⟩))
      _ _ _ _ _ _ _ _ _ _ _ _ _ _ _ _ (ix2 n l) ?_ ?_ ?_ ?_ ?_ ?_ ?_ ?_ ?_ ?_ ?_ ?_ ?_ ?_ ?_ ?_
    · exact (chunk_apply (k0_pay3 x0 x1) 0 _ n l ⟨0 + l.val, by have := l.isLt; omega⟩ rfl).trans
        (pay3_apply x0 x1 hx0 hx1 n _)
    · exact (chunk_apply (k0_pay3 x0 x1) 128 _ n l ⟨128 + l.val, by have := l.isLt; omega⟩ rfl).trans
        (pay3_apply x0 x1 hx0 hx1 n _)
    · exact (chunk_apply (k0_pay3 x0 x1) 256 _ n l ⟨256 + l.val, by have := l.isLt; omega⟩ rfl).trans
        (pay3_apply x0 x1 hx0 hx1 n _)
    · exact (chunk_apply (k0_pay3 x0 x1) 384 _ n l ⟨384 + l.val, by have := l.isLt; omega⟩ rfl).trans
        (pay3_apply x0 x1 hx0 hx1 n _)
    · exact (chunk_apply (k0_pay3 x0 x1) 512 _ n l ⟨512 + l.val, by have := l.isLt; omega⟩ rfl).trans
        (pay3_apply x0 x1 hx0 hx1 n _)
    · exact (chunk_apply (k0_pay3 x0 x1) 640 _ n l ⟨640 + l.val, by have := l.isLt; omega⟩ rfl).trans
        (pay3_apply x0 x1 hx0 hx1 n _)
    · exact (chunk_apply (k0_pay3 x0 x1) 768 _ n l ⟨768 + l.val, by have := l.isLt; omega⟩ rfl).trans
        (pay3_apply x0 x1 hx0 hx1 n _)
    · exact (chunk_apply (k0_pay3 x0 x1) 896 _ n l ⟨896 + l.val, by have := l.isLt; omega⟩ rfl).trans
        (pay3_apply x0 x1 hx0 hx1 n _)
    · exact (chunk_apply (k0_pay3 x0 x1) 1024 _ n l ⟨1024 + l.val, by have := l.isLt; omega⟩ rfl).trans
        (pay3_apply x0 x1 hx0 hx1 n _)
    · exact (chunk_apply (k0_pay3 x0 x1) 1152 _ n l ⟨1152 + l.val, by have := l.isLt; omega⟩ rfl).trans
        (pay3_apply x0 x1 hx0 hx1 n _)
    · exact (chunk_apply (k0_pay3 x0 x1) 1280 _ n l ⟨1280 + l.val, by have := l.isLt; omega⟩ rfl).trans
        (pay3_apply x0 x1 hx0 hx1 n _)
    · exact (chunk_apply (k0_pay3 x0 x1) 1408 _ n l ⟨1408 + l.val, by have := l.isLt; omega⟩ rfl).trans
        (pay3_apply x0 x1 hx0 hx1 n _)
    · exact (chunk_apply (k0_pay3 x0 x1) 1536 _ n l ⟨1536 + l.val, by have := l.isLt; omega⟩ rfl).trans
        (pay3_apply x0 x1 hx0 hx1 n _)
    · exact (chunk_apply (k0_pay3 x0 x1) 1664 _ n l ⟨1664 + l.val, by have := l.isLt; omega⟩ rfl).trans
        (pay3_apply x0 x1 hx0 hx1 n _)
    · exact (chunk_apply (k0_pay3 x0 x1) 1792 _ n l ⟨1792 + l.val, by have := l.isLt; omega⟩ rfl).trans
        (pay3_apply x0 x1 hx0 hx1 n _)
    · exact (chunk_apply (k0_pay3 x0 x1) 1920 _ n l ⟨1920 + l.val, by have := l.isLt; omega⟩ rfl).trans
        (pay3_apply x0 x1 hx0 hx1 n _)
  · refine (colSum_apply _ j).trans (Finset.sum_congr rfl fun m _ => ?_)
    refine (colMin_apply _ m).trans ?_
    unfold nearR
    exact congrArg (fun f => Finset.fold min top f (Finset.univ : Finset (Fin 2048)))
      (funext fun n => pay3_apply x0 x1 hx0 hx1 n m)

end Cert.Chamfer.Kern

end
-- ==== Proof.KernelCases.lean ====
/-
  What each of the body's two control cases leaves in the output's staging buffer, as a value.

  At the first grid point the body stores a zero, reads it back, and stores that plus the point's scaled sums. At every
  later point it reads what the point before left and stores that plus the point's scaled sums. In both cases the last
  store covers the whole one-entry buffer, so what the buffer holds afterwards is that store's value.
-/
import proofs.«175334_g481036337229_cont_8to1_c_20_8_alg».proof.Proof.Gen.KernelIdeal.Frame
import Idealize.ShloMosaic.Lib.Pipeline.Value
import Idealize.ShloMosaic.Lib.Tactic

noncomputable section

namespace Cert.Chamfer.Kern

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point: the running value `xo` plus the point's scaled sums. -/
theorem out_B (c : Dev nD) (i : grid0.Coords) (a1 : Memref sig .tc .vmem S1x2048x3 .f32) (h1 : a1.IsWhole)
    (a2 : Memref sig .tc .vmem S1x2048x3 .f32) (h2 : a2.IsWhole) (a3 : Memref sig .tc .vmem S1x1 .f32) (h3 : a3.IsWhole)
    (hc : ¬cond0_0 i) (x0 x1 : Vec F S1x2048x3 .f32) (xo : Vec F S1x1 .f32) :
    out0_B_2 c i a1 h1 a2 h2 a3 h3 hc x0 x1 xo = k0_pay2 (k0_pay3 x0 x1) (k0_pay4 x0 x1) (k0_pay5 x0 x1) (k0_pay6 x0 x1) (k0_pay7 x0 x1) (k0_pay8 x0 x1) (k0_pay9 x0 x1) (k0_pay10 x0 x1) (k0_pay11 x0 x1) (k0_pay12 x0 x1) (k0_pay13 x0 x1) (k0_pay14 x0 x1) (k0_pay15 x0 x1) (k0_pay16 x0 x1) (k0_pay17 x0 x1) xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz2]
  simp only [View.readAt_eq_ld, h1.read_unread, h2.read_unread, h3.read_unread, View.ld_unit_zero (S := S1x2048x3) hz3,
    View.ld_unit_zero (S := S1x1) hz2]

/-- The first point: zero plus the point's scaled sums. -/
theorem out_A (c : Dev nD) (i : grid0.Coords) (a1 : Memref sig .tc .vmem S1x2048x3 .f32) (h1 : a1.IsWhole)
    (a2 : Memref sig .tc .vmem S1x2048x3 .f32) (h2 : a2.IsWhole) (a3 : Memref sig .tc .vmem S1x1 .f32) (h3 : a3.IsWhole)
    (hc : cond0_0 i) (x0 x1 : Vec F S1x2048x3 .f32) :
    out0_A_2 c i a1 h1 a2 h2 a3 h3 hc x0 x1 = k0_pay2 (k0_pay3 x0 x1) (k0_pay4 x0 x1) (k0_pay5 x0 x1) (k0_pay6 x0 x1) (k0_pay7 x0 x1) (k0_pay8 x0 x1) (k0_pay9 x0 x1) (k0_pay10 x0 x1) (k0_pay11 x0 x1) (k0_pay12 x0 x1) (k0_pay13 x0 x1) (k0_pay14 x0 x1) (k0_pay15 x0 x1) (k0_pay16 x0 x1) (k0_pay17 x0 x1) (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S1x2048x3) hz3,
    View.ld_unit_zero (S := S1x1) hz2]

end Cert.Chamfer.Kern

end
-- ==== Proof.KernelRun.lean ====
/-
  The kernel's run, read: its result is the Chamfer loss of its two inputs, when these hold real numbers.

  Grid point t works on cloud pair t: the block it is handed of each input is that input's t-th cloud. By induction on
  the point, what the output's staging buffer holds after point n is the sum over the points up to n of the point's two
  nearest-neighbour sums, each scaled by 1/32768 (the first point starts from the zero it stores). The buffer is written
  back once, after the last point, and its one entry is the whole output array. The reshape after the region changes
  the array's shape from [1, 1] to a scalar and not its one entry. The sum of the sixteen scaled pairs is the loss.
-/
import proofs.«175334_g481036337229_cont_8to1_c_20_8_alg».proof.Proof.KernelPoint
import proofs.«175334_g481036337229_cont_8to1_c_20_8_alg».proof.Proof.KernelCases
import proofs.«175334_g481036337229_cont_8to1_c_20_8_alg».proof.Proof.Gen.KernelIdeal.Frame
import Idealize.ShloMosaic.Lib.Pipeline.Value
import Idealize.ShloMosaic.Lib.StableHlo.Run
import Idealize.ShloMosaic.Lib.Tactic

noncomputable section

open scoped BigOperators

namespace Cert.Chamfer.Kern

open Idealize.ShloMosaic Idealize.ShloMosaic.TcCoe Idealize.SL.Sem Idealize.ShloMosaic.ValueIdx Cert.Chamfer
open Cert.KernelIdeal Cert.KernelIdeal.Gen
open Idealize.ShloMosaic.Pipeline (Dat)

variable (m : (ℓ : Loc nD τ sig) → Buf (Elt Ideal) ℓ) (ρ : Dev nD → PrngReg)

/-! ## A point's blocks are its cloud pair -/

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Point `t`'s block of the first input is cloud `t` of it. -/
theorem iblk0_apply (c : Dev nD) (t : Fin cfg0.N) (n : Fin 2048) (k : Fin 3) :
    (iblk m c 0 t : Vec Ideal S1x2048x3 .f32) (ix3 (0 : Fin 1) n k)
      = m ((c : Thread nD τ).loc main_arg0) (ix3 (⟨t.val, lt_of_lt_of_eq t.isLt N_0⟩ : Fin 16) n k) := by
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val; rw [(idx0 t).1]; omega
  | ⟨1, _⟩ => show win0_0.index t 1 * 2048 + 1 * n.val = n.val; rw [(idx0 t).2.1]; omega
  | ⟨2, _⟩ => show win0_0.index t 2 * 3 + 1 * k.val = k.val; rw [(idx0 t).2.2]; omega

/-- Point `t`'s block of the second input is cloud `t` of it. -/
theorem iblk1_apply (c : Dev nD) (t : Fin cfg0.N) (n : Fin 2048) (k : Fin 3) :
    (iblk m c 1 t : Vec Ideal S1x2048x3 .f32) (ix3 (0 : Fin 1) n k)
      = m ((c : Thread nD τ).loc main_arg1) (ix3 (⟨t.val, lt_of_lt_of_eq t.isLt N_0⟩ : Fin 16) n k) := by
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val; rw [(idx1 t).1]; omega
  | ⟨1, _⟩ => show win0_1.index t 1 * 2048 + 1 * n.val = n.val; rw [(idx1 t).2.1]; omega
  | ⟨2, _⟩ => show win0_1.index t 2 * 3 + 1 * k.val = k.val; rw [(idx1 t).2.2]; omega

/-- A block of an input of real numbers holds real numbers. -/
theorem iblk0_real (c : Dev nD) (t : Fin cfg0.N) (hf : ∀ i, ∃ r : ℝ, m ((c : Thread nD τ).loc main_arg0) i = ((r : ℝ) : EReal)) :
    ∀ y, ∃ r : ℝ, (iblk m c 0 t : Vec Ideal S1x2048x3 .f32) y = ((r : ℝ) : EReal) := by
  intro y
  unfold iblk
  rw [View.read_apply]
  exact hf _
theorem iblk1_real (c : Dev nD) (t : Fin cfg0.N) (hf : ∀ i, ∃ r : ℝ, m ((c : Thread nD τ).loc main_arg1) i = ((r : ℝ) : EReal)) :
    ∀ y, ∃ r : ℝ, (iblk m c 1 t : Vec Ideal S1x2048x3 .f32) y = ((r : ℝ) : EReal) := by
  intro y
  unfold iblk
  rw [View.read_apply]
  exact hf _

/-! ## The running value -/

/-- Point `t`'s two nearest-neighbour sums. -/
def contrib (c : Dev nD) (t : Fin cfg0.N) : EReal := pointSums (iblk m c 0 t) (iblk m c 1 t)

/-- The scaled sums of the points up to `n`, added up. -/
def partialSum (c : Dev nD) (n : ℕ) : EReal :=
  ∑ b ∈ Finset.range (n + 1), (if hb : b < cfg0.N then contrib m c ⟨b, hb⟩ else 0) * scale

/-- What the first point leaves, as a value. -/
theorem outsAt_A_val (c : Dev nD) (t : Fin cfg0.N) (h0 : t.val % 16 = 0) :
    outsAt0 m c t.val t.isLt
      = k0_pay2 (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (iblk m c 0 t) (iblk m c 1 t)) (k0_pay8 (iblk m c 0 t) (iblk m c 1 t)) (k0_pay9 (iblk m c 0 t) (iblk m c 1 t)) (k0_pay10 (iblk m c 0 t) (iblk m c 1 t)) (k0_pay11 (iblk m c 0 t) (iblk m c 1 t)) (k0_pay12 (iblk m c 0 t) (iblk m c 1 t)) (k0_pay13 (iblk m c 0 t) (iblk m c 1 t)) (k0_pay14 (iblk m c 0 t) (iblk m c 1 t)) (k0_pay15 (iblk m c 0 t) (iblk m c 1 t)) (k0_pay16 (iblk m c 0 t) (iblk m c 1 t)) (k0_pay17 (iblk m c 0 t) (iblk m c 1 t)) (k0_pay1 (F := Ideal)) :=
  (outsAt0_A m c t h0).trans
    (out_A c (grid0.coords t) (ms0_0 t) (hs0_0 t) (ms0_1 t) (hs0_1 t) (ms0_2 t) (hs0_2 t) ((hcond0_0 t).mpr h0)
      (iblk m c 0 t) (iblk m c 1 t))

/-- What a later point leaves, as a value over what the point before left. -/
theorem outsAt_B_val (c : Dev nD) (t : Fin cfg0.N) (h0 : ¬t.val % 16 = 0) :
    outsAt0 m c t.val t.isLt
      = k0_pay2 (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (iblk m c 0 t) (iblk m c 1 t)) (k0_pay8 (iblk m c 0 t) (iblk m c 1 t)) (k0_pay9 (iblk m c 0 t) (iblk m c 1 t)) (k0_pay10 (iblk m c 0 t) (iblk m c 1 t)) (k0_pay11 (iblk m c 0 t) (iblk m c 1 t)) (k0_pay12 (iblk m c 0 t) (iblk m c 1 t)) (k0_pay13 (iblk m c 0 t) (iblk m c 1 t)) (k0_pay14 (iblk m c 0 t) (iblk m c 1 t)) (k0_pay15 (iblk m c 0 t) (iblk m c 1 t)) (k0_pay16 (iblk m c 0 t) (iblk m c 1 t)) (k0_pay17 (iblk m c 0 t) (iblk m c 1 t))
          (outsAt0 m c (t.val - 1) (Nat.lt_of_le_of_lt (Nat.sub_le _ _) t.isLt)) :=
  (outsAt0_B m c t h0).trans
    (out_B c (grid0.coords t) (ms0_0 t) (hs0_0 t) (ms0_1 t) (hs0_1 t) (ms0_2 t) (hs0_2 t)
      (fun h => h0 ((hcond0_0 t).mp h)) (iblk m c 0 t) (iblk m c 1 t)
      (outsAt0 m c (t.val - 1) (Nat.lt_of_le_of_lt (Nat.sub_le _ _) t.isLt)))

variable (hf0 : ∀ (c : Dev nD) i, ∃ r : ℝ, m ((c : Thread nD τ).loc main_arg0) i = ((r : ℝ) : EReal))
variable (hf1 : ∀ (c : Dev nD) i, ∃ r : ℝ, m ((c : Thread nD τ).loc main_arg1) i = ((r : ℝ) : EReal))

include hf0 hf1 in
theorem step_A (c : Dev nD) (t : Fin cfg0.N) (h0 : t.val % 16 = 0) (j : S1x1.Idx) :
    outsAt0 m c t.val t.isLt j = 0 + contrib m c t * scale := by
  refine (congrFun (outsAt_A_val m c t h0) j).trans ?_
  refine (pay2_apply (iblk m c 0 t) (iblk m c 1 t) (iblk0_real m c t (hf0 c)) (iblk1_real m c t (hf1 c))
    (k0_pay1 (F := Ideal)) j).trans ?_
  show Ideal.ofBits .f32 0x00000000#32 + _ = _
  rw [word_zero]
  rfl

include hf0 hf1 in
theorem step_B (c : Dev nD) (t : Fin cfg0.N) (h0 : ¬t.val % 16 = 0) (j : S1x1.Idx) :
    outsAt0 m c t.val t.isLt j
      = outsAt0 m c (t.val - 1) (Nat.lt_of_le_of_lt (Nat.sub_le _ _) t.isLt) j + contrib m c t * scale :=
  (congrFun (outsAt_B_val m c t h0) j).trans
    (pay2_apply (iblk m c 0 t) (iblk m c 1 t) (iblk0_real m c t (hf0 c)) (iblk1_real m c t (hf1 c))
      (outsAt0 m c (t.val - 1) (Nat.lt_of_le_of_lt (Nat.sub_le _ _) t.isLt)) j)

include hf0 hf1 in
/-- After point `n` the output's staging buffer holds the scaled sums of the points up to `n`, added up. -/
theorem outsAt_eq (c : Dev nD) : ∀ (n : ℕ) (h : n < cfg0.N) (j : S1x1.Idx), outsAt0 m c n h j = partialSum m c n
  | 0, h, j => by
    refine (step_A m hf0 hf1 c ⟨0, h⟩ rfl j).trans ?_
    unfold partialSum
    rw [Finset.sum_range_one, dif_pos h, zero_add]
  | n + 1, h, j => by
    have hN : cfg0.N = 16 := N_0
    refine (step_B m hf0 hf1 c ⟨n + 1, h⟩ (by dsimp only; omega) j).trans ?_
    show outsAt0 m c n _ j + _ = _
    rw [outsAt_eq c n _ j]
    unfold partialSum
    rw [Finset.sum_range_succ _ (n + 1), dif_pos h]

/-! ## The output array -/

/-- The sixteen points' scaled sums, added up. -/
def result (c : Dev nD) : EReal := partialSum m c 15

include hf0 hf1 in
/-- The one write-back, after the last point, writes the running value: the block is the whole [1, 1] array. -/
theorem flushed_eq (c : Dev nD) (t : Fin cfg0.N) (hf : (cfg0.win 2).flush t = true) :
    (dats m 0 c).flushed 2 t = ((cfg0.win 2).blk t).view.read (Elt Ideal) (fun _ => result m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2]
  have e : outsAt0 m c t0_15.val t0_15.isLt = fun _ => result m c :=
    funext fun j => outsAt_eq m hf0 hf1 c 15 t0_15.isLt j
  rw [e]
  have hz' : (fun a => win0_2.index t0_15 a * main_v0.ty.shape.size a) = fun _ => 0 :=
    funext fun a => by fin_cases a <;> decide
  exact (Memref.read_access_unit_zero (Elt Ideal) main_v0 hz' (fun a => by rw [congrFun hz' a]; simp)
    (fun _ => result m c)).symm

include hf0 hf1 in
/-- So the output array ends holding the sixteen points' scaled sums, added up. -/
theorem final_o (c : Dev nD) : (dats m 0 c).arrAt 2 cfg0.N = fun _ => result m c :=
  (dats m 0 c).arrAt_eq_of_cover 2 (fun _ => result m c) (flushed_eq m hf0 hf1 c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [show win0_2.index t0_15 0 * win0_2.size 0 = 0 from by decide +kernel,
          show win0_2.xsize (grid0.coords t0_15) 0 = 1 from by decide +kernel]
        omega
      | ⟨1, _⟩ =>
        show win0_2.index t0_15 1 * win0_2.size 1 ≤ (i 1 : Nat)
          ∧ (i 1 : Nat) < win0_2.index t0_15 1 * win0_2.size 1 + win0_2.xsize (grid0.coords t0_15) 1
        rw [show win0_2.index t0_15 1 * win0_2.size 1 = 0 from by decide +kernel,
          show win0_2.xsize (grid0.coords t0_15) 1 = 1 from by decide +kernel]
        omega⟩

/-! ## The sixteen points' sums are the loss -/

/-- The sixteen points' scaled sums, added up, are the Chamfer loss of the two inputs. -/
theorem result_eq_loss (c : Dev nD) :
    result m c = loss (cloud (m ((c : Thread nD τ).loc main_arg0))) (cloud (m ((c : Thread nD τ).loc main_arg1))) := by
  have hN : cfg0.N = 16 := N_0
  unfold result partialSum
  rw [Finset.sum_range]
  have e : ∀ b : Fin 16, (if hb : b.val < cfg0.N then contrib m c ⟨b.val, hb⟩ else 0)
      = (∑ n, nearL (cloud (m ((c : Thread nD τ).loc main_arg0)) b) (cloud (m ((c : Thread nD τ).loc main_arg1)) b) n)
        + (∑ k, nearR (cloud (m ((c : Thread nD τ).loc main_arg0)) b) (cloud (m ((c : Thread nD τ).loc main_arg1)) b) k) :=
    fun b => by
      have hb : b.val < cfg0.N := by have := b.isLt; omega
      rw [dif_pos hb]
      unfold contrib pointSums
      have p0 : pts (iblk m c 0 ⟨b.val, hb⟩) = cloud (m ((c : Thread nD τ).loc main_arg0)) b :=
        funext fun n => funext fun k => iblk0_apply m c ⟨b.val, hb⟩ n k
      have p1 : pts (iblk m c 1 ⟨b.val, hb⟩) = cloud (m ((c : Thread nD τ).loc main_arg1)) b :=
        funext fun n => funext fun k => iblk1_apply m c ⟨b.val, hb⟩ n k
      rw [p0, p1]
  show ∑ b : Fin 16, (if hb : b.val < cfg0.N then contrib m c ⟨b.val, hb⟩ else 0) * scale = _
  simp only [e]
  exact scaled_total _ _

/-! ## The reshape after the region, and the run -/

include hf0 hf1 in
/-- The reshape after the region reads the output array's one entry. -/
theorem tail_eq (c : Dev nD) :
    Pipeline.afterTail₀ cfgs (dats m) 0 (V0 m) [hostOps1] c main_v1 = fun _ => result m c := by
  unfold Pipeline.afterTail₀
  show StableHlo.after hostOps1 _ (Proc.devRef .tc main_v1) = _
  after_results
  rw [Pipeline.withArrays_arr spec0 launch0.win.arr_inj c _ _ 2, final_o m hf0 hf1 c]
  rfl

include hf0 hf1 in
/-- The run, read: the result at the sixteen points' scaled sums, the two inputs unchanged. -/
theorem run : θ_run defs (onTc (τ := τ) (main (F := Ideal))) ⟨m, fun _ => 0, ρ⟩ fun r => ∀ c : Dev nD,
      r.2.mem ((c.tc : Thread nD τ).loc main_v1) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl fun w => by fin_cases w <;> decide)).trans (tail_eq m hf0 hf1 c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Chamfer.Kern

end
-- ==== Proof.lean ====
/-
  The Chamfer loss of sixteen pairs of clouds of 2048 points in three dimensions: a kernel that takes every squared
  distance of a pair from ONE product of eight-entry factors, takes nearest neighbours chunk by chunk, and adds one
  scaled term per pair into a running value, against a reference that spells the squared distance
  (|p|² + |q|²) − 2·(p · q), takes plain minima and divides two totals by 32768.

  Over the extended reals, for inputs that hold real numbers, both compute
      (Σ_b Σ_n min_m d_b(n, m)) / 32768 + (Σ_b Σ_m min_n d_b(n, m)) / 32768.
  * The eight-entry product is the squared distance because |p|² − |p|² = 0 for a real |p|² (the one use of the
    precondition), the rest being a polynomial identity (Proof/Spec.lean `eight_eq_dist`, Proof/KernelPoint.lean).
  * A minimum taken over sixteen chunks by a tree and then over 128 lanes is the minimum over all 2048 candidates: a
    minimum is the greatest lower bound, however it is grouped (`chunked_min`).
  * Sixteen terms each scaled by 1/32768 and added up are the two totals scaled: a nonnegative real factor distributes
    over any sum of extended reals (`scaled_total`).
  The kernel's running value is followed point by point by induction (Proof/KernelRun.lean); the reference is read one
  operation at a time (Proof/RefLoss.lean). The kernel's idealization removed three widen-after-narrow pairs, each the
  identity over the extended reals.
-/
import proofs.«175334_g481036337229_cont_8to1_c_20_8_alg».proof.Defs
import proofs.«175334_g481036337229_cont_8to1_c_20_8_alg».proof.Proof.Gen.Kernel
import proofs.«175334_g481036337229_cont_8to1_c_20_8_alg».proof.Proof.Gen.Kernel.Skeleton
import proofs.«175334_g481036337229_cont_8to1_c_20_8_alg».proof.Proof.Gen.Kernel.Launch
import proofs.«175334_g481036337229_cont_8to1_c_20_8_alg».proof.Proof.Gen.Kernel.Points
import proofs.«175334_g481036337229_cont_8to1_c_20_8_alg».proof.Proof.Gen.Kernel.Frame
import proofs.«175334_g481036337229_cont_8to1_c_20_8_alg».proof.Proof.Gen.KernelIdeal
import proofs.«175334_g481036337229_cont_8to1_c_20_8_alg».proof.Proof.Gen.KernelIdeal.Skeleton
import proofs.«175334_g481036337229_cont_8to1_c_20_8_alg».proof.Proof.Gen.KernelIdeal.Launch
import proofs.«175334_g481036337229_cont_8to1_c_20_8_alg».proof.Proof.Gen.KernelIdeal.Points
import proofs.«175334_g481036337229_cont_8to1_c_20_8_alg».proof.Proof.Gen.KernelIdeal.Frame
import proofs.«175334_g481036337229_cont_8to1_c_20_8_alg».proof.Proof.Gen.ReferenceIdeal
import proofs.«175334_g481036337229_cont_8to1_c_20_8_alg».proof.Proof.Gen.Pre_finite_inputs
import proofs.«175334_g481036337229_cont_8to1_c_20_8_alg».proof.Proof.Gen.ReferenceIdeal.Run
import proofs.«175334_g481036337229_cont_8to1_c_20_8_alg».proof.Proof.Gen.ReferenceIdeal.Read
import proofs.«175334_g481036337229_cont_8to1_c_20_8_alg».proof.Proof.Spec
import proofs.«175334_g481036337229_cont_8to1_c_20_8_alg».proof.Proof.Finite
import proofs.«175334_g481036337229_cont_8to1_c_20_8_alg».proof.Proof.RefLoss
import proofs.«175334_g481036337229_cont_8to1_c_20_8_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Narrowing to sixteen bits and widening back is the identity over the extended reals, at each of the three places
    the idealization removed it. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- Both programs end at the Chamfer loss of the inputs, which hold real numbers by the precondition. -/
theorem algebraic : Cert.algebraic_KernelIdeal_ReferenceIdeal := by
  intro m ρ m' ρ' hpre hagree
  have hfin := fun c => Cert.Chamfer.real_of_pre _ _ (hpre c)
  refine ⟨fun c => fun _ => Cert.Chamfer.loss
      (Cert.Chamfer.cloud (m ((c.tc : Thread Cert.KernelIdeal.nD Cert.KernelIdeal.τ).loc Cert.KernelIdeal.main_arg0)))
      (Cert.Chamfer.cloud (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (funext fun _ => Cert.Chamfer.Kern.result_eq_loss m c), (h c).2⟩)
      (Cert.Chamfer.Kern.run m ρ (fun c => (hfin c).1) (fun c => (hfin c).2))
  · refine (θ_run Cert.ReferenceIdeal.defs _ _).mono (fun _ h c => ⟨?_, (h c).2⟩)
      (Cert.ReferenceIdeal.Value.run (F := Ideal) m' ρ')
    rw [(h c).1, Cert.ReferenceIdeal.Read.val_main_v19_eq, (hagree c).1, (hagree c).2]
    exact funext fun i => Cert.Chamfer.Ref.result_eq_loss _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
